-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 97
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S1x64, .f32⟩
  | .hbm, ⟨96, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .i1⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .i1⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .i1⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_14 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Segments.lean ====
/-
  The idealized kernel program's run, with every buffer read at the end.

  The program is eight segments: four stretches of host operations, each followed by a kernel launched over
  its ten grid points. The contents of the buffers at the boundary between two segments are a fold: a stretch
  applies its operations to the contents it starts from; a kernel leaves its operand arrays as they were and
  its result array at what its ten write-backs leave, and touches nothing else. Every weakly fair execution
  terminates without a fault, and in the final state EVERY buffer that outlives a kernel holds the last
  boundary's contents. The frame claim reads only the argument buffers out of this; the value claim reads the
  result buffer.
-/
import proofs.«174133_j19997367730748_1_alg».proof.Proof.Gen.KernelIdeal.Frame

set_option maxRecDepth 16384

noncomputable section

namespace Cert.KernelIdeal.Segments

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives
    a kernel at the contents the fold through the eight segments gives it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer outlives every kernel. -/
theorem result_mem : Proc.devRef .tc main_v73 ∈ Pipeline.ucRefs τ sig := mem_uc main_v73 (by decide)

end Cert.KernelIdeal.Segments

end
-- ==== Proof.Spec.lean ====
/-
  The network's dense stages, index by index.

  A node-feature array has one row per node and 64 features. Three stages act on it row by row:
  the leaky rectifier `lrelu v = v` when `v ≥ 0` and `slope · v` otherwise (the slope is one float literal,
  the same word wherever it is used, so it is never evaluated); `biasAct a b`, which adds the bias row `b`
  to every row of `a` and rectifies; and `dense h W`, the product of the rows of `h` with the 64 × 64
  matrix `W`: entry (p, q) is the sum over k of h (p, k) · W (k, q). All three are stated for any number
  of rows, so that a block of rows of the result is the same function of the corresponding block of rows
  of the operand. The first two are stated for any float instance; the product is stated at the exact
  values, where it is a finite sum of extended reals.
-/
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx
open scoped BigOperators

variable {F : FTy → Type} [FloatOps F]

/-- The leaky rectifier: `v` where `v ≥ 0`, the slope literal times `v` elsewhere. -/
def lrelu (v : F .f32) : F .f32 :=
  Scalar.select (FloatOps.cmpf .oge v (FloatOps.ofBits .f32 0x00000000#32)) v
    (FloatOps.mulf (FloatOps.ofBits .f32 0x3C23D70A#32) v)

/-- The bias row `b` added to every row of `a`, then rectified: entry (p, q) is `lrelu (a (p, q) + b (0, q))`. -/
def biasAct {n : Nat} (a : (⟨2, ![n, 64]⟩ : Shape).Idx → F .f32) (b : (⟨2, ![1, 64]⟩ : Shape).Idx → F .f32) :
    (⟨2, ![n, 64]⟩ : Shape).Idx → F .f32 :=
  fun i => lrelu (FloatOps.addf (a i) (b (ix2 (0 : Fin 1) (i 1))))

theorem biasAct_apply {n : Nat} (a : (⟨2, ![n, 64]⟩ : Shape).Idx → F .f32) (b : (⟨2, ![1, 64]⟩ : Shape).Idx → F .f32)
    (p : Fin n) (q : Fin 64) :
    biasAct a b (ix2 p q) = lrelu (FloatOps.addf (a (ix2 p q)) (b (ix2 (0 : Fin 1) q))) := rfl

/-- The rows of `h` times the matrix `W`, at the exact values: entry (p, q) is ∑ k, h (p, k) · W (k, q). -/
def dense {n : Nat} (h : FVec Ideal ⟨2, ![n, 64]⟩ .f32) (W : FVec Ideal ⟨2, ![64, 64]⟩ .f32) :
    FVec Ideal ⟨2, ![n, 64]⟩ .f32 :=
  fun i => ∑ k : Fin 64, h (ix2 (i 0) k) * W (ix2 k (i 1))

theorem dense_apply {n : Nat} (h : FVec Ideal ⟨2, ![n, 64]⟩ .f32) (W : FVec Ideal ⟨2, ![64, 64]⟩ .f32)
    (p : Fin n) (q : Fin 64) :
    dense h W (ix2 p q) = ∑ k : Fin 64, h (ix2 p k) * W (ix2 k q) := rfl

end Cert.Gcn

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.DenseRegion0.lean ====
/-
  The first kernel: the product of the node features with the first layer's weights.

  At grid point t the kernel loads rows 10000·t … 10000·t + 9999 of the features and the whole 64 × 64 weight
  matrix and stores their product, into a zero accumulator, over the same rows of its result. Rounding the
  operands to a shorter format before the product is the identity at the exact values, and a product into a zero
  accumulator is the plain sum over the 64 contracted positions. Row r of the result lies in exactly one point's
  block (point r / 10000), so after the ten points the result array is `dense x W` of the two arrays the kernel
  was entered with, whatever those were.
-/
import proofs.«174133_j19997367730748_1_alg».proof.Proof.Gen.KernelIdeal.Frame
import Idealize.ShloMosaic.Lib.Pipeline.Value
import Idealize.ShloMosaic.Lib.ValueIdx
import proofs.«174133_j19997367730748_1_alg».proof.Proof.Spec
import proofs.«174133_j19997367730748_1_alg».proof.Proof.LibRowBroadcasts
import proofs.«174133_j19997367730748_1_alg».proof.Proof.LibPlainDot
set_option maxRecDepth 16384

noncomputable section

namespace Cert.KernelIdeal.DenseRegion0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

open scoped BigOperators

theorem hz : (![0, 0] : Fin 2 → Nat) = fun _ => 0 := funext fun a => by fin_cases a <;> rfl

/-- The value the body stores: the block times the weights, entry by entry the sum over the 64 contracted
    positions. -/
theorem pay_eq (x0 : Vec Ideal S10000x64 .f32) (x2 : Vec Ideal S64x64 .f32) :
    k0_pay1 (F := Ideal) x0 x2 = Gcn.dense x0 x2 := by
  funext j
  obtain ⟨p, q, rfl⟩ : ∃ (p : Fin 10000) (q : Fin 64), j = ix2 p q := ⟨j 0, j 1, eq_ix2 j⟩
  rw [Gcn.dense_apply]
  unfold k0_pay1
  exact Cert.Lib.PlainDot.matmul_zero_apply dot_S10000x64_S64x64_S10000x64_1_0_0_1_n_n_wf none _ _ p q

/-- The printed index maps over the ten points: the feature block moves with the result block; the weight block
    stays at the origin; the result block has no column offset. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- Every one of the ten row-blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two whole arrays. -/
theorem flushed_eq (c : Dev nD) (t : Fin cfg0.N) :
    (dat0 V c).flushed 2 t = ((cfg0.win 2).blk t).view.read (Elt Ideal)
      (Gcn.dense (n := 100000) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [pay_eq]
  obtain ⟨e0, e1, e2, e3, e4⟩ := idx_facts t
  funext j
  show ∑ k : Fin 64, FloatOps.mulf (F := Ideal) (V c main_arg0 (((cfg0.win 0).blk t).view.emb (ix2 (j 0) k)))
        (V c main_arg2 (((cfg0.win 1).blk t).view.emb (ix2 k (j 1))))
    = ∑ k : Fin 64, FloatOps.mulf (F := Ideal) (V c main_arg0 (ix2 ((((cfg0.win 2).blk t).view.emb j) 0) k))
        (V c main_arg2 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]
  rfl

/-- An index of the result array lies in point t's block iff each coordinate lies in the block's range. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v28).slice (win0_2.rect t)).set ↔ _
  rw [View.set_slice_whole, Rect.mem_set_unit]
  exact Iff.rfl

/-- Row r of the result lies in the block of the point whose row-block is r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the ten points the result array is the product of the two arrays the kernel was entered with. -/
theorem final (c : Dev nD) :
    (dat0 V c).arrAt 2 cfg0.N = Gcn.dense (n := 100000) (V c main_arg0) (V c main_arg2) :=
  (dat0 V c).arrAt_eq_of_cover 2 _ (fun t _ => flushed_eq V c t) cover

end Cert.KernelIdeal.DenseRegion0

end
-- ==== Proof.ActRegion.lean ====
/-
  The last kernel: bias and rectifier over the node-feature array, ten thousand rows at a grid point.

  At grid point t the kernel loads rows 10000·t … 10000·t + 9999 of the aggregated features and the whole bias
  row, and stores `lrelu (a + b)` over the same rows of its result. Every row of the result lies in exactly
  one point's block (row r in point r / 10000), so after the ten points the result array is the stage
  `biasAct` of the two arrays the kernel was entered with, whatever those were.
-/
import proofs.«174133_j19997367730748_1_alg».proof.Proof.Gen.KernelIdeal.Frame
import Idealize.ShloMosaic.Lib.Pipeline.Value
import Idealize.ShloMosaic.Lib.ValueIdx
import proofs.«174133_j19997367730748_1_alg».proof.Proof.Spec
import proofs.«174133_j19997367730748_1_alg».proof.Proof.LibRowBroadcasts

set_option maxRecDepth 16384

noncomputable section

namespace Cert.KernelIdeal.ActRegion

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The value the body stores is the bias-and-rectifier stage of its two loaded blocks. -/
theorem pay_eq (x0 : Vec F S10000x64 .f32) (x1 : Vec F S1x64 .f32) : k3_pay1 x0 x1 = Gcn.biasAct x0 x1 := by
  funext j
  obtain ⟨p, q, rfl⟩ : ∃ (p : Fin 10000) (q : Fin 64), j = ix2 p q := ⟨j 0, j 1, eq_ix2 j⟩
  have hb : broadcastTo S10000x64 (shapeCast S1x64 x1 shapeCasts_S1x64_S1x64) broadcasts_S1x64_S10000x64 (ix2 p q)
      = x1 (ix2 (0 : Fin 1) q) := by
    rw [shapeCast_self]; exact Cert.Lib.Rows.bcastRow_apply x1 _ p q
  rw [Gcn.biasAct_apply]
  unfold k3_pay1 Gcn.lrelu
  dsimp only [select, cmpf, addf, mulf, broadcast]
  rw [shapeCast_self, hb]

/-- The printed index maps over the ten points: the feature block moves with the result block, the bias
    block stays at the origin, and point t's result block starts at row-block t. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0 :=
  (by decide +kernel : ∀ t : Fin grid3.N, _)

/-- Every one of the ten row-blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the stage applied to the two whole arrays. -/
theorem flushed_eq (c : Dev nD) (t : Fin cfg3.N) :
    (dat3 V c).flushed 2 t
      = ((cfg3.win 2).blk t).view.read (Elt F) (Gcn.biasAct (n := 100000) (V c main_v71) (V c main_v72)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay_eq]
  obtain ⟨e0, e1, e2, e3, e4⟩ := idx_facts t
  funext j
  show Gcn.lrelu (FloatOps.addf (V c main_v71 (((cfg3.win 0).blk t).view.emb j))
        (V c main_v72 (((cfg3.win 1).blk t).view.emb (ix2 (0 : Fin 1) (j 1)))))
    = Gcn.lrelu (FloatOps.addf (V c main_v71 (((cfg3.win 2).blk t).view.emb j))
        (V c main_v72 (ix2 (0 : Fin 1) ((((cfg3.win 2).blk t).view.emb j) 1))))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (j 1))
      = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]
  rfl

/-- An index of the result array lies in point t's block iff each coordinate lies in the block's range. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v73).slice (win3_2.rect t)).set ↔ _
  rw [View.set_slice_whole, Rect.mem_set_unit]
  exact Iff.rfl

/-- Row r of the result lies in the block of the point whose row-block is r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the ten points the result array is the stage of the two arrays the kernel was entered with. -/
theorem final (c : Dev nD) :
    (dat3 V c).arrAt 2 cfg3.N = Gcn.biasAct (n := 100000) (V c main_v71) (V c main_v72) :=
  (dat3 V c).arrAt_eq_of_cover 2 _ (fun t _ => flushed_eq V c t) cover

end Cert.KernelIdeal.ActRegion

end
-- ==== Proof.MidRegion1.lean ====
/-
  The second kernel: bias, rectifier, then the product with the second layer's weights.

  At grid point t the kernel loads rows 10000·t … 10000·t + 9999 of the aggregated features, the whole bias row
  and the whole 64 × 64 weight matrix; it adds the bias to every row, rectifies, and multiplies by the weights
  into a zero accumulator, storing the product over the same rows of its result. Rounding the operands to a
  shorter format before the product is the identity at the exact values, and a product into a zero accumulator
  is the plain sum over the 64 contracted positions. Row r of the result lies in exactly one point's block
  (point r / 10000), so after the ten points the result array is `dense (biasAct a b) W` of the three arrays the
  kernel was entered with, whatever those were.
-/
import proofs.«174133_j19997367730748_1_alg».proof.Proof.Gen.KernelIdeal.Frame
import Idealize.ShloMosaic.Lib.Pipeline.Value
import Idealize.ShloMosaic.Lib.ValueIdx
import proofs.«174133_j19997367730748_1_alg».proof.Proof.Spec
import proofs.«174133_j19997367730748_1_alg».proof.Proof.LibRowBroadcasts
import proofs.«174133_j19997367730748_1_alg».proof.Proof.LibPlainDot
import proofs.«174133_j19997367730748_1_alg».proof.Proof.ActRegion
set_option maxRecDepth 16384

noncomputable section

namespace Cert.KernelIdeal.MidRegion1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

open scoped BigOperators

theorem hz : (![0, 0] : Fin 2 → Nat) = fun _ => 0 := funext fun a => by fin_cases a <;> rfl

/-- The value the body stores: the rectified, biased block times the weights, entry by entry the sum over the
    64 contracted positions. -/
theorem pay_eq (x0 : Vec Ideal S10000x64 .f32) (x1 : Vec Ideal S1x64 .f32) (x2 : Vec Ideal S64x64 .f32) :
    k1_pay1 (F := Ideal) x0 x1 x2 = Gcn.dense (Gcn.biasAct x0 x1) x2 := by
  funext j
  obtain ⟨p, q, rfl⟩ : ∃ (p : Fin 10000) (q : Fin 64), j = ix2 p q := ⟨j 0, j 1, eq_ix2 j⟩
  rw [Gcn.dense_apply]
  unfold k1_pay1
  refine (Cert.Lib.PlainDot.matmul_zero_apply dot_S10000x64_S64x64_S10000x64_1_0_0_1_n_n_wf none _ _ p q).trans ?_
  refine Finset.sum_congr rfl fun k _ => ?_
  have ha := congrFun (Cert.KernelIdeal.ActRegion.pay_eq (F := Ideal) x0 x1) (ix2 p k)
  show k3_pay1 (F := Ideal) x0 x1 (ix2 p k) * x2 (ix2 k q) = _
  rw [ha]

/-- The printed index maps over the ten points: the feature block moves with the result block; the bias and
    the weight blocks stay at the origin; the result block has no column offset. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every one of the ten row-blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of the stage applied to the three whole arrays. -/
theorem flushed_eq (c : Dev nD) (t : Fin cfg1.N) :
    (dat1 V c).flushed 3 t = ((cfg1.win 3).blk t).view.read (Elt Ideal)
      (Gcn.dense (n := 100000) (Gcn.biasAct (n := 100000) (V c main_v41) (V c main_v42)) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  rw [pay_eq]
  obtain ⟨e0, e1, e2, e3, e4, e5, e6⟩ := idx_facts t
  funext j
  show ∑ k : Fin 64, Gcn.lrelu (F := Ideal) (FloatOps.addf (V c main_v41 (((cfg1.win 0).blk t).view.emb (ix2 (j 0) k)))
          (V c main_v42 (((cfg1.win 1).blk t).view.emb (ix2 (0 : Fin 1) k))))
        * (V c main_arg4 (((cfg1.win 2).blk t).view.emb (ix2 k (j 1))) : Ideal .f32)
    = ∑ k : Fin 64, Gcn.lrelu (F := Ideal) (FloatOps.addf (V c main_v41 (ix2 ((((cfg1.win 3).blk t).view.emb j) 0) k))
          (V c main_v42 (ix2 (0 : Fin 1) k)))
        * (V c main_arg4 (ix2 k ((((cfg1.win 3).blk t).view.emb j) 1)) : Ideal .f32)
  refine Finset.sum_congr rfl fun k _ => ?_
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  rw [h0, h1, h2]
  rfl

/-- An index of the result array lies in point t's block iff each coordinate lies in the block's range. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v43).slice (win1_3.rect t)).set ↔ _
  rw [View.set_slice_whole, Rect.mem_set_unit]
  exact Iff.rfl

/-- Row r of the result lies in the block of the point whose row-block is r / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the ten points the result array is the stage of the three arrays the kernel was entered with. -/
theorem final (c : Dev nD) :
    (dat1 V c).arrAt 3 cfg1.N
      = Gcn.dense (n := 100000) (Gcn.biasAct (n := 100000) (V c main_v41) (V c main_v42)) (V c main_arg4) :=
  (dat1 V c).arrAt_eq_of_cover 3 _ (fun t _ => flushed_eq V c t) cover

end Cert.KernelIdeal.MidRegion1

end
-- ==== Proof.MidRegion2.lean ====
/-
  The third kernel: bias, rectifier, then the product with the third layer's weights.

  At grid point t the kernel loads rows 10000·t … 10000·t + 9999 of the aggregated features, the whole bias row
  and the whole 64 × 64 weight matrix; it adds the bias to every row, rectifies, and multiplies by the weights
  into a zero accumulator, storing the product over the same rows of its result. Rounding the operands to a
  shorter format before the product is the identity at the exact values, and a product into a zero accumulator
  is the plain sum over the 64 contracted positions. Row r of the result lies in exactly one point's block
  (point r / 10000), so after the ten points the result array is `dense (biasAct a b) W` of the three arrays the
  kernel was entered with, whatever those were.
-/
import proofs.«174133_j19997367730748_1_alg».proof.Proof.Gen.KernelIdeal.Frame
import Idealize.ShloMosaic.Lib.Pipeline.Value
import Idealize.ShloMosaic.Lib.ValueIdx
import proofs.«174133_j19997367730748_1_alg».proof.Proof.Spec
import proofs.«174133_j19997367730748_1_alg».proof.Proof.LibRowBroadcasts
import proofs.«174133_j19997367730748_1_alg».proof.Proof.LibPlainDot
import proofs.«174133_j19997367730748_1_alg».proof.Proof.ActRegion
set_option maxRecDepth 16384

noncomputable section

namespace Cert.KernelIdeal.MidRegion2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

open scoped BigOperators

theorem hz : (![0, 0] : Fin 2 → Nat) = fun _ => 0 := funext fun a => by fin_cases a <;> rfl

/-- The value the body stores: the rectified, biased block times the weights, entry by entry the sum over the
    64 contracted positions. -/
theorem pay_eq (x0 : Vec Ideal S10000x64 .f32) (x1 : Vec Ideal S1x64 .f32) (x2 : Vec Ideal S64x64 .f32) :
    k2_pay1 (F := Ideal) x0 x1 x2 = Gcn.dense (Gcn.biasAct x0 x1) x2 := by
  funext j
  obtain ⟨p, q, rfl⟩ : ∃ (p : Fin 10000) (q : Fin 64), j = ix2 p q := ⟨j 0, j 1, eq_ix2 j⟩
  rw [Gcn.dense_apply]
  unfold k2_pay1
  refine (Cert.Lib.PlainDot.matmul_zero_apply dot_S10000x64_S64x64_S10000x64_1_0_0_1_n_n_wf none _ _ p q).trans ?_
  refine Finset.sum_congr rfl fun k _ => ?_
  have ha := congrFun (Cert.KernelIdeal.ActRegion.pay_eq (F := Ideal) x0 x1) (ix2 p k)
  show k3_pay1 (F := Ideal) x0 x1 (ix2 p k) * x2 (ix2 k q) = _
  rw [ha]

/-- The printed index maps over the ten points: the feature block moves with the result block; the bias and
    the weight blocks stay at the origin; the result block has no column offset. -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every one of the ten row-blocks is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point t writes back is block t of the stage applied to the three whole arrays. -/
theorem flushed_eq (c : Dev nD) (t : Fin cfg2.N) :
    (dat2 V c).flushed 3 t = ((cfg2.win 3).blk t).view.read (Elt Ideal)
      (Gcn.dense (n := 100000) (Gcn.biasAct (n := 100000) (V c main_v56) (V c main_v57)) (V c main_arg6)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  rw [pay_eq]
  obtain ⟨e0, e1, e2, e3, e4, e5, e6⟩ := idx_facts t
  funext j
  show ∑ k : Fin 64, Gcn.lrelu (F := Ideal) (FloatOps.addf (V c main_v56 (((cfg2.win 0).blk t).view.emb (ix2 (j 0) k)))
          (V c main_v57 (((cfg2.win 1).blk t).view.emb (ix2 (0 : Fin 1) k))))
        * (V c main_arg6 (((cfg2.win 2).blk t).view.emb (ix2 k (j 1))) : Ideal .f32)
    = ∑ k : Fin 64, Gcn.lrelu (F := Ideal) (FloatOps.addf (V c main_v56 (ix2 ((((cfg2.win 3).blk t).view.emb j) 0) k))
          (V c main_v57 (ix2 (0 : Fin 1) k)))
        * (V c main_arg6 (ix2 k ((((cfg2.win 3).blk t).view.emb j) 1)) : Ideal .f32)
  refine Finset.sum_congr rfl fun k _ => ?_
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ((cfg2.win 2).blk t).view.emb (ix2 k (j 1)) = ix2 k ((((cfg2.win 3).blk t).view.emb j) 1) := by
    funext a; apply Fin.ext
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  rw [h0, h1, h2]
  rfl

/-- An index of the result array lies in point t's block iff each coordinate lies in the block's range. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v58).slice (win2_3.rect t)).set ↔ _
  rw [View.set_slice_whole, Rect.mem_set_unit]
  exact Iff.rfl

/-- Row r of the result lies in the block of the point whose row-block is r / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the ten points the result array is the stage of the three arrays the kernel was entered with. -/
theorem final (c : Dev nD) :
    (dat2 V c).arrAt 3 cfg2.N
      = Gcn.dense (n := 100000) (Gcn.biasAct (n := 100000) (V c main_v56) (V c main_v57)) (V c main_arg6) :=
  (dat2 V c).arrAt_eq_of_cover 3 _ (fun t _ => flushed_eq V c t) cover

end Cert.KernelIdeal.MidRegion2

end
-- ==== Proof.RefNet.lean ====
/-
  The graph glue and the whole network, as functions of the argument arrays.

  Both programs prepare the graph the same way, by the same host operations. The edge list's two rows are each
  extended by every node once (a self loop per node): these are the source and the destination of each of the
  1 700 000 edges. An index is wrapped once (a negative index counts from the end). The degree of a node is the
  number of edges that end in it (ones scattered by destination); an edge's weight is the product of the inverse
  square roots of the degrees at its two ends. One aggregation step gathers the rows of a feature array by
  source, scales each by its edge's weight, and adds it into the row of its destination. The network is three
  layers, each a product with a 64 × 64 matrix, an aggregation, a bias and a rectifier.

  The aggregation is carried here as one function and never opened: the two programs apply it to arrays that
  are shown equal, so what a gather or a scatter-add does at an index is never needed. The product and the
  bias-and-rectifier are the two stages the programs spell differently; `refDot_eq` and `refAct_eq` read the
  reference's spelling of them index by index.
-/
import proofs.«174133_j19997367730748_1_alg».proof.Proof.Gen.ReferenceIdeal
import proofs.«174133_j19997367730748_1_alg».proof.Proof.Spec
import proofs.«174133_j19997367730748_1_alg».proof.Proof.LibPlainDot
import proofs.«174133_j19997367730748_1_alg».proof.Proof.LibRowBroadcasts

noncomputable section

namespace Cert.ReferenceIdeal.Net

open Cert.ReferenceIdeal Cert.ReferenceIdeal.Gen Idealize.ShloMosaic Idealize.ShloMosaic.TcCoe
open Idealize.ShloMosaic.ValueIdx

variable {F : FTy → Type} [FloatOps F]

/-- The edges' sources: the edge list's first row, then every node once. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: the edge list's second row, then every node once. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index wrapped once: a negative index counts from the end of the 100 000 nodes. -/
def wrap (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

/-- The inverse square root of every node's degree: ones scattered by destination, then `rsqrt`. -/
def degInvSqrt (dst : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32)))

/-- Every edge's weight: the product of the inverse square roots of the degrees at its two ends. -/
def normOf (src dst : (⟨S1700000, .i32⟩ : BufTy).Contents (Elt F)) : (⟨S1700000, .f32⟩ : BufTy).Contents (Elt F) :=
  mulf (Host.gather gather_S100000_S1700000x1_S1700000_n_0_n_n_0_1_1 (degInvSqrt dst)
      (broadcastInDim S1700000x1 ![0] bcast_S1700000_S1700000x1_0 (wrap src)))
    (Host.gather gather_S100000_S1700000x1_S1700000_n_0_n_n_0_1_1 (degInvSqrt dst)
      (broadcastInDim S1700000x1 ![0] bcast_S1700000_S1700000x1_0 (wrap dst)))

/-- One aggregation step: the rows of `h` gathered by source, each scaled by its edge's weight, added into the
    row of its destination. -/
def aggregate (src dst : (⟨S1700000, .i32⟩ : BufTy).Contents (Elt F)) (norm : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h
        (broadcastInDim S1700000x1 ![0] bcast_S1700000_S1700000x1_0 (wrap src)))
      (broadcastInDim S1700000x64 ![0, 1] bcast_S1700000x1_S1700000x64_0_1
        (broadcastInDim S1700000x1 ![0] bcast_S1700000_S1700000x1_0 norm)))

/-- A bias vector laid out as a row. -/
def rowOf (b : (⟨S64, .f32⟩ : BufTy).Contents (Elt F)) : (⟨S1x64, .f32⟩ : BufTy).Contents (Elt F) :=
  broadcastInDim S1x64 ![1] bcast_S64_S1x64_1 b

/-- The reference's spelling of bias and rectifier: the bias vector broadcast to a row, the row to every row,
    added; then the comparison with zero selects between the sum and the slope times the sum. -/
def refAct (a : (⟨S100000x64, .f32⟩ : BufTy).Contents (Elt F)) (b : (⟨S64, .f32⟩ : BufTy).Contents (Elt F)) :
    (⟨S100000x64, .f32⟩ : BufTy).Contents (Elt F) :=
  select (cmpf .oge (addf a (broadcastInDim S100000x64 ![0, 1] bcast_S1x64_S100000x64_0_1 (broadcastInDim S1x64 ![1] bcast_S64_S1x64_1 b)))
      (broadcastInDim S100000x64 ![] bcast_S_S100000x64 (constant S_ .f32 0x00000000#32)))
    (addf a (broadcastInDim S100000x64 ![0, 1] bcast_S1x64_S100000x64_0_1 (broadcastInDim S1x64 ![1] bcast_S64_S1x64_1 b)))
    (mulf (broadcastInDim S100000x64 ![] bcast_S_S100000x64 (constant S_ .f32 0x3C23D70A#32))
      (addf a (broadcastInDim S100000x64 ![0, 1] bcast_S1x64_S100000x64_0_1 (broadcastInDim S1x64 ![1] bcast_S64_S1x64_1 b))))

/-- The reference's spelling of the product with a weight matrix. -/
def refDot (h : (⟨S100000x64, .f32⟩ : BufTy).Contents (Elt F)) (W : (⟨S64x64, .f32⟩ : BufTy).Contents (Elt F)) :
    (⟨S100000x64, .f32⟩ : BufTy).Contents (Elt F) :=
  Host.dotGeneral dot_S100000x64_S64x64_S100000x64_1_0_0_1_n_n none h W

/-- One layer as the reference spells it: product, aggregation, bias and rectifier. -/
def refLayer (e : (⟨S2x1600000, .i32⟩ : BufTy).Contents (Elt F)) (h : (⟨S100000x64, .f32⟩ : BufTy).Contents (Elt F))
    (W : (⟨S64x64, .f32⟩ : BufTy).Contents (Elt F)) (b : (⟨S64, .f32⟩ : BufTy).Contents (Elt F)) :
    (⟨S100000x64, .f32⟩ : BufTy).Contents (Elt F) :=
  refAct (aggregate (srcOf e) (dstOf e) (normOf (srcOf e) (dstOf e)) (refDot h W)) b

/-- The three layers. -/
def refNet (x : (⟨S100000x64, .f32⟩ : BufTy).Contents (Elt F)) (e : (⟨S2x1600000, .i32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F))
    (W3 : (⟨S64x64, .f32⟩ : BufTy).Contents (Elt F)) (b3 : (⟨S64, .f32⟩ : BufTy).Contents (Elt F)) :
    (⟨S100000x64, .f32⟩ : BufTy).Contents (Elt F) :=
  refLayer e (refLayer e (refLayer e x W1 b1) W2 b2) W3 b3

/-! ## The two stages the programs spell differently, read index by index -/

/-- The reference's product is the plain sum over the 64 contracted positions. -/
theorem refDot_eq (h : (⟨S100000x64, .f32⟩ : BufTy).Contents (Elt Ideal)) (W : (⟨S64x64, .f32⟩ : BufTy).Contents (Elt Ideal)) :
    refDot (F := Ideal) h W = Gcn.dense (n := 100000) h W := by
  funext j
  obtain ⟨p, q, rfl⟩ : ∃ (p : Fin 100000) (q : Fin 64), j = ix2 p q := ⟨j 0, j 1, eq_ix2 j⟩
  rw [Gcn.dense_apply]
  exact Cert.Lib.PlainDot.dotGeneral_apply dot_S100000x64_S64x64_S100000x64_1_0_0_1_n_n_wf none h W p q

/-- The reference's bias and rectifier is the stage `biasAct` at the bias vector laid out as a row. -/
theorem refAct_eq (a : (⟨S100000x64, .f32⟩ : BufTy).Contents (Elt F)) (b : (⟨S64, .f32⟩ : BufTy).Contents (Elt F)) :
    refAct a b = Gcn.biasAct (n := 100000) a (rowOf b) := by
  unfold rowOf
  funext j
  obtain ⟨p, q, rfl⟩ : ∃ (p : Fin 100000) (q : Fin 64), j = ix2 p q := ⟨j 0, j 1, eq_ix2 j⟩
  have hb : broadcastInDim S100000x64 ![0, 1] bcast_S1x64_S100000x64_0_1 (broadcastInDim S1x64 ![1] bcast_S64_S1x64_1 b) (ix2 p q)
      = broadcastInDim S1x64 ![1] bcast_S64_S1x64_1 b (ix2 (0 : Fin 1) q) :=
    Cert.Lib.Rows.dimRow_apply _ bcast_S1x64_S100000x64_0_1 p q
  rw [Gcn.biasAct_apply]
  unfold refAct Gcn.lrelu
  dsimp only [select, cmpf, addf, mulf]
  rw [hb]
  rfl

/-! ## The network as three equal layers -/

/-- One layer at the exact values: the product with `W`, the aggregation over the graph of the edge list `e`, the
    bias `b` laid out as a row and added to every row, the rectifier. -/
def layer (e : (⟨S2x1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  Gcn.biasAct (n := 100000) (aggregate (srcOf e) (dstOf e) (normOf (srcOf e) (dstOf e)) (Gcn.dense (n := 100000) h W))
    (rowOf b)

/-- The three layers. -/
def net (x : (⟨S100000x64, .f32⟩ : BufTy).Contents (Elt Ideal)) (e : (⟨S2x1600000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (W3 : (⟨S64x64, .f32⟩ : BufTy).Contents (Elt Ideal)) (b3 : (⟨S64, .f32⟩ : BufTy).Contents (Elt Ideal)) :
    (⟨S100000x64, .f32⟩ : BufTy).Contents (Elt Ideal) :=
  layer e (layer e (layer e x W1 b1) W2 b2) W3 b3

/-- A layer as the reference spells it is that layer. -/
theorem refLayer_eq (e : (⟨S2x1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    refLayer (F := Ideal) e h W b = layer e h W b := by
  unfold refLayer layer
  rw [refAct_eq, refDot_eq]

/-- The network as the reference spells it is the three layers. -/
theorem refNet_eq (x : (⟨S100000x64, .f32⟩ : BufTy).Contents (Elt Ideal)) (e : (⟨S2x1600000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (W3 : (⟨S64x64, .f32⟩ : BufTy).Contents (Elt Ideal)) (b3 : (⟨S64, .f32⟩ : BufTy).Contents (Elt Ideal)) :
    refNet (F := Ideal) x e W1 b1 W2 b2 W3 b3 = net x e W1 b1 W2 b2 W3 b3 := by
  unfold refNet net
  rw [refLayer_eq, refLayer_eq, refLayer_eq]

end Cert.ReferenceIdeal.Net

end
-- ==== Proof.Glue.lean ====
/-
  The host operations between the kernels, read once each.

  The program's host operations come in four stretches. The first prepares the graph from the edge list: the
  sources, the destinations and the edge weights. Each of the other three takes the features the kernel before it
  produced, aggregates them over the graph, and lays the next bias vector out as a row. Each stretch is read here
  over an ARBITRARY starting contents `W` of the buffers: what it leaves in the buffers a later kernel or stretch
  reads, as a function of `W` at the buffers it reads, and that it leaves alone the buffers it does not write.
  The aggregation is the shared function `aggregate`, never opened.
-/
import proofs.«174133_j19997367730748_1_alg».proof.Proof.Gen.KernelIdeal.Frame
import proofs.«174133_j19997367730748_1_alg».proof.Proof.RefNet
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.StableHlo

variable {F : FTy → Type} [FloatOps F]
variable (W : Valuation τ sig (Elt F))

/-- No operation of a stretch writes the buffer: each operation writes one buffer, another one. -/
macro "not_written" : tactic => `(tactic| (
  simp only [hostOps0, hostOps1, hostOps2, hostOps3, List.Forall, nullary_writes, unary_writes, binary_writes, ternary_writes,
    quaternary_writes, reshape_writes, binaryIndexed_writes, Finset.mem_singleton]
  repeat' apply And.intro
  all_goals exact devRef_ne_of_ne (by decide)))

/-! ## The first stretch: the graph -/

theorem src0 : after hostOps0 W (Proc.devRef .tc main_v3) = Cert.ReferenceIdeal.Net.srcOf (W (Proc.devRef .tc main_arg1)) := by
  after_results; rfl

theorem dst0 : after hostOps0 W (Proc.devRef .tc main_v7) = Cert.ReferenceIdeal.Net.dstOf (W (Proc.devRef .tc main_arg1)) := by
  after_results; rfl

theorem norm0 : after hostOps0 W (Proc.devRef .tc main_v27)
    = Cert.ReferenceIdeal.Net.normOf (Cert.ReferenceIdeal.Net.srcOf (W (Proc.devRef .tc main_arg1))) (Cert.ReferenceIdeal.Net.dstOf (W (Proc.devRef .tc main_arg1))) := by
  after_results_simp; rfl

theorem keep0_arg0 : after hostOps0 W (Proc.devRef .tc main_arg0) = W (Proc.devRef .tc main_arg0) :=
  after_of_forall_not_mem (b := Proc.devRef .tc main_arg0) _ _ (List.forall_iff_forall_mem.mp (by not_written))
theorem keep0_arg1 : after hostOps0 W (Proc.devRef .tc main_arg1) = W (Proc.devRef .tc main_arg1) :=
  after_of_forall_not_mem (b := Proc.devRef .tc main_arg1) _ _ (List.forall_iff_forall_mem.mp (by not_written))
theorem keep0_arg2 : after hostOps0 W (Proc.devRef .tc main_arg2) = W (Proc.devRef .tc main_arg2) :=
  after_of_forall_not_mem (b := Proc.devRef .tc main_arg2) _ _ (List.forall_iff_forall_mem.mp (by not_written))
theorem keep0_arg3 : after hostOps0 W (Proc.devRef .tc main_arg3) = W (Proc.devRef .tc main_arg3) :=
  after_of_forall_not_mem (b := Proc.devRef .tc main_arg3) _ _ (List.forall_iff_forall_mem.mp (by not_written))
theorem keep0_arg4 : after hostOps0 W (Proc.devRef .tc main_arg4) = W (Proc.devRef .tc main_arg4) :=
  after_of_forall_not_mem (b := Proc.devRef .tc main_arg4) _ _ (List.forall_iff_forall_mem.mp (by not_written))
theorem keep0_arg5 : after hostOps0 W (Proc.devRef .tc main_arg5) = W (Proc.devRef .tc main_arg5) :=
  after_of_forall_not_mem (b := Proc.devRef .tc main_arg5) _ _ (List.forall_iff_forall_mem.mp (by not_written))
theorem keep0_arg6 : after hostOps0 W (Proc.devRef .tc main_arg6) = W (Proc.devRef .tc main_arg6) :=
  after_of_forall_not_mem (b := Proc.devRef .tc main_arg6) _ _ (List.forall_iff_forall_mem.mp (by not_written))
theorem keep0_arg7 : after hostOps0 W (Proc.devRef .tc main_arg7) = W (Proc.devRef .tc main_arg7) :=
  after_of_forall_not_mem (b := Proc.devRef .tc main_arg7) _ _ (List.forall_iff_forall_mem.mp (by not_written))

/-! ## The three stretches that aggregate -/

set_option maxHeartbeats 4000000 in
/-- Stretch 1's aggregation, from the features the kernel before it left in `main_v28`. -/
theorem agg1 : after hostOps1 W (Proc.devRef .tc main_v41)
    = Cert.ReferenceIdeal.Net.aggregate (W (Proc.devRef .tc main_v3)) (W (Proc.devRef .tc main_v7)) (W (Proc.devRef .tc main_v27))
        (W (Proc.devRef .tc main_v28)) := by
  after_results_simp; rfl

set_option maxHeartbeats 4000000 in
/-- Stretch 1 lays the bias vector out as a row. -/
theorem row1 : after hostOps1 W (Proc.devRef .tc main_v42)
    = shapeCast _ (W (Proc.devRef .tc main_arg3)) shapeCasts_S64_S1x64 := by
  after_results; rfl

theorem keep1_v3 : after hostOps1 W (Proc.devRef .tc main_v3) = W (Proc.devRef .tc main_v3) :=
  after_of_forall_not_mem (b := Proc.devRef .tc main_v3) _ _ (List.forall_iff_forall_mem.mp (by not_written))
theorem keep1_v7 : after hostOps1 W (Proc.devRef .tc main_v7) = W (Proc.devRef .tc main_v7) :=
  after_of_forall_not_mem (b := Proc.devRef .tc main_v7) _ _ (List.forall_iff_forall_mem.mp (by not_written))
theorem keep1_v27 : after hostOps1 W (Proc.devRef .tc main_v27) = W (Proc.devRef .tc main_v27) :=
  after_of_forall_not_mem (b := Proc.devRef .tc main_v27) _ _ (List.forall_iff_forall_mem.mp (by not_written))
theorem keep1_arg4 : after hostOps1 W (Proc.devRef .tc main_arg4) = W (Proc.devRef .tc main_arg4) :=
  after_of_forall_not_mem (b := Proc.devRef .tc main_arg4) _ _ (List.forall_iff_forall_mem.mp (by not_written))
theorem keep1_arg5 : after hostOps1 W (Proc.devRef .tc main_arg5) = W (Proc.devRef .tc main_arg5) :=
  after_of_forall_not_mem (b := Proc.devRef .tc main_arg5) _ _ (List.forall_iff_forall_mem.mp (by not_written))
theorem keep1_arg6 : after hostOps1 W (Proc.devRef .tc main_arg6) = W (Proc.devRef .tc main_arg6) :=
  after_of_forall_not_mem (b := Proc.devRef .tc main_arg6) _ _ (List.forall_iff_forall_mem.mp (by not_written))
theorem keep1_arg7 : after hostOps1 W (Proc.devRef .tc main_arg7) = W (Proc.devRef .tc main_arg7) :=
  after_of_forall_not_mem (b := Proc.devRef .tc main_arg7) _ _ (List.forall_iff_forall_mem.mp (by not_written))

set_option maxHeartbeats 4000000 in
/-- Stretch 2's aggregation, from the features the kernel before it left in `main_v43`. -/
theorem agg2 : after hostOps2 W (Proc.devRef .tc main_v56)
    = Cert.ReferenceIdeal.Net.aggregate (W (Proc.devRef .tc main_v3)) (W (Proc.devRef .tc main_v7)) (W (Proc.devRef .tc main_v27))
        (W (Proc.devRef .tc main_v43)) := by
  after_results_simp; rfl

set_option maxHeartbeats 4000000 in
/-- Stretch 2 lays the bias vector out as a row. -/
theorem row2 : after hostOps2 W (Proc.devRef .tc main_v57)
    = shapeCast _ (W (Proc.devRef .tc main_arg5)) shapeCasts_S64_S1x64 := by
  after_results; rfl

theorem keep2_v3 : after hostOps2 W (Proc.devRef .tc main_v3) = W (Proc.devRef .tc main_v3) :=
  after_of_forall_not_mem (b := Proc.devRef .tc main_v3) _ _ (List.forall_iff_forall_mem.mp (by not_written))
theorem keep2_v7 : after hostOps2 W (Proc.devRef .tc main_v7) = W (Proc.devRef .tc main_v7) :=
  after_of_forall_not_mem (b := Proc.devRef .tc main_v7) _ _ (List.forall_iff_forall_mem.mp (by not_written))
theorem keep2_v27 : after hostOps2 W (Proc.devRef .tc main_v27) = W (Proc.devRef .tc main_v27) :=
  after_of_forall_not_mem (b := Proc.devRef .tc main_v27) _ _ (List.forall_iff_forall_mem.mp (by not_written))
theorem keep2_arg6 : after hostOps2 W (Proc.devRef .tc main_arg6) = W (Proc.devRef .tc main_arg6) :=
  after_of_forall_not_mem (b := Proc.devRef .tc main_arg6) _ _ (List.forall_iff_forall_mem.mp (by not_written))
theorem keep2_arg7 : after hostOps2 W (Proc.devRef .tc main_arg7) = W (Proc.devRef .tc main_arg7) :=
  after_of_forall_not_mem (b := Proc.devRef .tc main_arg7) _ _ (List.forall_iff_forall_mem.mp (by not_written))

set_option maxHeartbeats 4000000 in
/-- Stretch 3's aggregation, from the features the kernel before it left in `main_v58`. -/
theorem agg3 : after hostOps3 W (Proc.devRef .tc main_v71)
    = Cert.ReferenceIdeal.Net.aggregate (W (Proc.devRef .tc main_v3)) (W (Proc.devRef .tc main_v7)) (W (Proc.devRef .tc main_v27))
        (W (Proc.devRef .tc main_v58)) := by
  after_results_simp; rfl

set_option maxHeartbeats 4000000 in
/-- Stretch 3 lays the bias vector out as a row. -/
theorem row3 : after hostOps3 W (Proc.devRef .tc main_v72)
    = shapeCast _ (W (Proc.devRef .tc main_arg7)) shapeCasts_S64_S1x64 := by
  after_results; rfl

end Cert.KernelIdeal.Glue

end
-- ==== Proof.Chain.lean ====
/-
  The contents of the buffers at each of the program's eight boundaries, as functions of the launch memory.

  Between the launch and the return the program crosses eight boundaries: after each of the four stretches of
  host operations and after each of the four kernels. At each boundary the buffers that something later reads
  are followed here: the graph's sources, destinations and edge weights and the not yet consumed arguments are
  carried unchanged (a stretch does not write them, a kernel touches only its own arrays), and the one or two
  buffers the segment produced are read by the segment's own lemma at the contents of the boundary before.
  Layer by layer this composes: after the first kernel, the features times the first weights; after the second
  stretch, their aggregation and the first bias as a row; after the second kernel, the first LAYER's result
  times the second weights; and so on until, after the fourth kernel, the result buffer holds the three layers
  applied to the argument arrays.
-/
import proofs.«174133_j19997367730748_1_alg».proof.Proof.Gen.KernelIdeal.Frame
import proofs.«174133_j19997367730748_1_alg».proof.Proof.DenseRegion0
import proofs.«174133_j19997367730748_1_alg».proof.Proof.MidRegion1
import proofs.«174133_j19997367730748_1_alg».proof.Proof.MidRegion2
import proofs.«174133_j19997367730748_1_alg».proof.Proof.ActRegion
import proofs.«174133_j19997367730748_1_alg».proof.Proof.Glue
import proofs.«174133_j19997367730748_1_alg».proof.Proof.RefNet
import proofs.«174133_j19997367730748_1_alg».proof.Proof.LibRowBroadcasts

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## After the first stretch: the graph, and the arguments as launched -/

theorem at1_arg0 : W1 m ρ c (Proc.devRef .tc main_arg0) = (m ((c : Thread nD τ).loc main_arg0)) := (Glue.keep0_arg0 (W0 m ρ c)).trans rfl
theorem at1_arg1 : W1 m ρ c (Proc.devRef .tc main_arg1) = (m ((c : Thread nD τ).loc main_arg1)) := (Glue.keep0_arg1 (W0 m ρ c)).trans rfl
theorem at1_arg2 : W1 m ρ c (Proc.devRef .tc main_arg2) = (m ((c : Thread nD τ).loc main_arg2)) := (Glue.keep0_arg2 (W0 m ρ c)).trans rfl
theorem at1_arg3 : W1 m ρ c (Proc.devRef .tc main_arg3) = (m ((c : Thread nD τ).loc main_arg3)) := (Glue.keep0_arg3 (W0 m ρ c)).trans rfl
theorem at1_arg4 : W1 m ρ c (Proc.devRef .tc main_arg4) = (m ((c : Thread nD τ).loc main_arg4)) := (Glue.keep0_arg4 (W0 m ρ c)).trans rfl
theorem at1_arg5 : W1 m ρ c (Proc.devRef .tc main_arg5) = (m ((c : Thread nD τ).loc main_arg5)) := (Glue.keep0_arg5 (W0 m ρ c)).trans rfl
theorem at1_arg6 : W1 m ρ c (Proc.devRef .tc main_arg6) = (m ((c : Thread nD τ).loc main_arg6)) := (Glue.keep0_arg6 (W0 m ρ c)).trans rfl
theorem at1_arg7 : W1 m ρ c (Proc.devRef .tc main_arg7) = (m ((c : Thread nD τ).loc main_arg7)) := (Glue.keep0_arg7 (W0 m ρ c)).trans rfl
theorem at1_v3 : W1 m ρ c (Proc.devRef .tc main_v3) = (Cert.ReferenceIdeal.Net.srcOf (m ((c : Thread nD τ).loc main_arg1))) := Glue.src0 (W0 m ρ c)
theorem at1_v7 : W1 m ρ c (Proc.devRef .tc main_v7) = (Cert.ReferenceIdeal.Net.dstOf (m ((c : Thread nD τ).loc main_arg1))) := Glue.dst0 (W0 m ρ c)
theorem at1_v27 : W1 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := Glue.norm0 (W0 m ρ c)

/-! ## After the first kernel: the features times the first weights -/

theorem at2_v28 : W2 m ρ c (Proc.devRef .tc main_v28) = (Gcn.dense (n := 100000) (m ((c : Thread nD τ).loc main_arg0)) (m ((c : Thread nD τ).loc main_arg2))) := by
  refine (W2_arr m ρ c 2).trans ((DenseRegion0.final (V1 m ρ) c).trans ?_)
  show Gcn.dense (n := 100000) (W1 m ρ c (Proc.devRef .tc main_arg0)) (W1 m ρ c (Proc.devRef .tc main_arg2)) = _
  rw [at1_arg0, at1_arg2]
theorem at2_v3 : W2 m ρ c (Proc.devRef .tc main_v3) = (Cert.ReferenceIdeal.Net.srcOf (m ((c : Thread nD τ).loc main_arg1))) := (W2_of_ne m ρ c main_v3 (by decide)).trans (at1_v3 m ρ c)
theorem at2_v7 : W2 m ρ c (Proc.devRef .tc main_v7) = (Cert.ReferenceIdeal.Net.dstOf (m ((c : Thread nD τ).loc main_arg1))) := (W2_of_ne m ρ c main_v7 (by decide)).trans (at1_v7 m ρ c)
theorem at2_v27 : W2 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := (W2_of_ne m ρ c main_v27 (by decide)).trans (at1_v27 m ρ c)
theorem at2_arg3 : W2 m ρ c (Proc.devRef .tc main_arg3) = (m ((c : Thread nD τ).loc main_arg3)) := (W2_of_ne m ρ c main_arg3 (by decide)).trans (at1_arg3 m ρ c)
theorem at2_arg4 : W2 m ρ c (Proc.devRef .tc main_arg4) = (m ((c : Thread nD τ).loc main_arg4)) := (W2_of_ne m ρ c main_arg4 (by decide)).trans (at1_arg4 m ρ c)
theorem at2_arg5 : W2 m ρ c (Proc.devRef .tc main_arg5) = (m ((c : Thread nD τ).loc main_arg5)) := (W2_of_ne m ρ c main_arg5 (by decide)).trans (at1_arg5 m ρ c)
theorem at2_arg6 : W2 m ρ c (Proc.devRef .tc main_arg6) = (m ((c : Thread nD τ).loc main_arg6)) := (W2_of_ne m ρ c main_arg6 (by decide)).trans (at1_arg6 m ρ c)
theorem at2_arg7 : W2 m ρ c (Proc.devRef .tc main_arg7) = (m ((c : Thread nD τ).loc main_arg7)) := (W2_of_ne m ρ c main_arg7 (by decide)).trans (at1_arg7 m ρ c)

/-! ## After the second stretch: the first aggregation, and the first bias as a row -/

theorem at3_v41 : W3 m ρ c (Proc.devRef .tc main_v41) = (Cert.ReferenceIdeal.Net.aggregate (Cert.ReferenceIdeal.Net.srcOf (m ((c : Thread nD τ).loc main_arg1))) (Cert.ReferenceIdeal.Net.dstOf (m ((c : Thread nD τ).loc main_arg1))) (Cert.ReferenceIdeal.Net.normOf (Cert.ReferenceIdeal.Net.srcOf (m ((c : Thread nD τ).loc main_arg1))) (Cert.ReferenceIdeal.Net.dstOf (m ((c : Thread nD τ).loc main_arg1)))) (Gcn.dense (n := 100000) (m ((c : Thread nD τ).loc main_arg0)) (m ((c : Thread nD τ).loc main_arg2)))) := by
  refine (Glue.agg1 (W2 m ρ c)).trans ?_
  rw [at2_v3, at2_v7, at2_v27, at2_v28]
theorem at3_v42 : W3 m ρ c (Proc.devRef .tc main_v42) = (Cert.ReferenceIdeal.Net.rowOf (m ((c : Thread nD τ).loc main_arg3))) := by
  refine (Glue.row1 (W2 m ρ c)).trans ?_
  rw [at2_arg3]
  unfold Cert.ReferenceIdeal.Net.rowOf
  exact Cert.Lib.Rows.castRow_eq_dimRow _ _ _
theorem at3_v3 : W3 m ρ c (Proc.devRef .tc main_v3) = (Cert.ReferenceIdeal.Net.srcOf (m ((c : Thread nD τ).loc main_arg1))) := (Glue.keep1_v3 (W2 m ρ c)).trans (at2_v3 m ρ c)
theorem at3_v7 : W3 m ρ c (Proc.devRef .tc main_v7) = (Cert.ReferenceIdeal.Net.dstOf (m ((c : Thread nD τ).loc main_arg1))) := (Glue.keep1_v7 (W2 m ρ c)).trans (at2_v7 m ρ c)
theorem at3_v27 : W3 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := (Glue.keep1_v27 (W2 m ρ c)).trans (at2_v27 m ρ c)
theorem at3_arg4 : W3 m ρ c (Proc.devRef .tc main_arg4) = (m ((c : Thread nD τ).loc main_arg4)) := (Glue.keep1_arg4 (W2 m ρ c)).trans (at2_arg4 m ρ c)
theorem at3_arg5 : W3 m ρ c (Proc.devRef .tc main_arg5) = (m ((c : Thread nD τ).loc main_arg5)) := (Glue.keep1_arg5 (W2 m ρ c)).trans (at2_arg5 m ρ c)
theorem at3_arg6 : W3 m ρ c (Proc.devRef .tc main_arg6) = (m ((c : Thread nD τ).loc main_arg6)) := (Glue.keep1_arg6 (W2 m ρ c)).trans (at2_arg6 m ρ c)
theorem at3_arg7 : W3 m ρ c (Proc.devRef .tc main_arg7) = (m ((c : Thread nD τ).loc main_arg7)) := (Glue.keep1_arg7 (W2 m ρ c)).trans (at2_arg7 m ρ c)

/-! ## After the second kernel: the first layer's result times the second weights -/

theorem at4_v43 : W4 m ρ c (Proc.devRef .tc main_v43) = (Gcn.dense (n := 100000) (Cert.ReferenceIdeal.Net.layer (m ((c : Thread nD τ).loc main_arg1)) (m ((c : Thread nD τ).loc main_arg0)) (m ((c : Thread nD τ).loc main_arg2)) (m ((c : Thread nD τ).loc main_arg3))) (m ((c : Thread nD τ).loc main_arg4))) := by
  refine (W4_arr m ρ c 3).trans ((MidRegion1.final (V3 m ρ) c).trans ?_)
  show Gcn.dense (n := 100000) (Gcn.biasAct (n := 100000) (W3 m ρ c (Proc.devRef .tc main_v41)) (W3 m ρ c (Proc.devRef .tc main_v42))) (W3 m ρ c (Proc.devRef .tc main_arg4)) = _
  rw [at3_v41, at3_v42, at3_arg4]
  rfl
theorem at4_v3 : W4 m ρ c (Proc.devRef .tc main_v3) = (Cert.ReferenceIdeal.Net.srcOf (m ((c : Thread nD τ).loc main_arg1))) := (W4_of_ne m ρ c main_v3 (by decide)).trans (at3_v3 m ρ c)
theorem at4_v7 : W4 m ρ c (Proc.devRef .tc main_v7) = (Cert.ReferenceIdeal.Net.dstOf (m ((c : Thread nD τ).loc main_arg1))) := (W4_of_ne m ρ c main_v7 (by decide)).trans (at3_v7 m ρ c)
theorem at4_v27 : W4 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := (W4_of_ne m ρ c main_v27 (by decide)).trans (at3_v27 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)

/-! ## After the third stretch: the second aggregation, and the second bias as a row -/

theorem at5_v56 : W5 m ρ c (Proc.devRef .tc main_v56) = (Cert.ReferenceIdeal.Net.aggregate (Cert.ReferenceIdeal.Net.srcOf (m ((c : Thread nD τ).loc main_arg1))) (Cert.ReferenceIdeal.Net.dstOf (m ((c : Thread nD τ).loc main_arg1))) (Cert.ReferenceIdeal.Net.normOf (Cert.ReferenceIdeal.Net.srcOf (m ((c : Thread nD τ).loc main_arg1))) (Cert.ReferenceIdeal.Net.dstOf (m ((c : Thread nD τ).loc main_arg1)))) (Gcn.dense (n := 100000) (Cert.ReferenceIdeal.Net.layer (m ((c : Thread nD τ).loc main_arg1)) (m ((c : Thread nD τ).loc main_arg0)) (m ((c : Thread nD τ).loc main_arg2)) (m ((c : Thread nD τ).loc main_arg3))) (m ((c : Thread nD τ).loc main_arg4)))) := by
  refine (Glue.agg2 (W4 m ρ c)).trans ?_
  rw [at4_v3, at4_v7, at4_v27, at4_v43]
theorem at5_v57 : W5 m ρ c (Proc.devRef .tc main_v57) = (Cert.ReferenceIdeal.Net.rowOf (m ((c : Thread nD τ).loc main_arg5))) := by
  refine (Glue.row2 (W4 m ρ c)).trans ?_
  rw [at4_arg5]
  unfold Cert.ReferenceIdeal.Net.rowOf
  exact Cert.Lib.Rows.castRow_eq_dimRow _ _ _
theorem at5_v3 : W5 m ρ c (Proc.devRef .tc main_v3) = (Cert.ReferenceIdeal.Net.srcOf (m ((c : Thread nD τ).loc main_arg1))) := (Glue.keep2_v3 (W4 m ρ c)).trans (at4_v3 m ρ c)
theorem at5_v7 : W5 m ρ c (Proc.devRef .tc main_v7) = (Cert.ReferenceIdeal.Net.dstOf (m ((c : Thread nD τ).loc main_arg1))) := (Glue.keep2_v7 (W4 m ρ c)).trans (at4_v7 m ρ c)
theorem at5_v27 : W5 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := (Glue.keep2_v27 (W4 m ρ c)).trans (at4_v27 m ρ c)
theorem at5_arg6 : W5 m ρ c (Proc.devRef .tc main_arg6) = (m ((c : Thread nD τ).loc main_arg6)) := (Glue.keep2_arg6 (W4 m ρ c)).trans (at4_arg6 m ρ c)
theorem at5_arg7 : W5 m ρ c (Proc.devRef .tc main_arg7) = (m ((c : Thread nD τ).loc main_arg7)) := (Glue.keep2_arg7 (W4 m ρ c)).trans (at4_arg7 m ρ c)

/-! ## After the third kernel: the second layer's result times the third weights -/

theorem at6_v58 : W6 m ρ c (Proc.devRef .tc main_v58) = (Gcn.dense (n := 100000) (Cert.ReferenceIdeal.Net.layer (m ((c : Thread nD τ).loc main_arg1)) (Cert.ReferenceIdeal.Net.layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) := by
  refine (W6_arr m ρ c 3).trans ((MidRegion2.final (V5 m ρ) c).trans ?_)
  show Gcn.dense (n := 100000) (Gcn.biasAct (n := 100000) (W5 m ρ c (Proc.devRef .tc main_v56)) (W5 m ρ c (Proc.devRef .tc main_v57))) (W5 m ρ c (Proc.devRef .tc main_arg6)) = _
  rw [at5_v56, at5_v57, at5_arg6]
  rfl
theorem at6_v3 : W6 m ρ c (Proc.devRef .tc main_v3) = (Cert.ReferenceIdeal.Net.srcOf (m ((c : Thread nD τ).loc main_arg1))) := (W6_of_ne m ρ c main_v3 (by decide)).trans (at5_v3 m ρ c)
theorem at6_v7 : W6 m ρ c (Proc.devRef .tc main_v7) = (Cert.ReferenceIdeal.Net.dstOf (m ((c : Thread nD τ).loc main_arg1))) := (W6_of_ne m ρ c main_v7 (by decide)).trans (at5_v7 m ρ c)
theorem at6_v27 : W6 m ρ c (Proc.devRef .tc main_v27) = (Cert.ReferenceIdeal.Net.normOf (Cert.ReferenceIdeal.Net.srcOf (m ((c : Thread nD τ).loc main_arg1))) (Cert.ReferenceIdeal.Net.dstOf (m ((c : Thread nD τ).loc main_arg1)))) := (W6_of_ne m ρ c main_v27 (by decide)).trans (at5_v27 m ρ c)
theorem at6_arg7 : W6 m ρ c (Proc.devRef .tc main_arg7) = (m ((c : Thread nD τ).loc main_arg7)) := (W6_of_ne m ρ c main_arg7 (by decide)).trans (at5_arg7 m ρ c)

/-! ## After the fourth stretch: the third aggregation, and the third bias as a row -/

theorem at7_v71 : W7 m ρ c (Proc.devRef .tc main_v71) = (Cert.ReferenceIdeal.Net.aggregate (Cert.ReferenceIdeal.Net.srcOf (m ((c : Thread nD τ).loc main_arg1))) (Cert.ReferenceIdeal.Net.dstOf (m ((c : Thread nD τ).loc main_arg1))) (Cert.ReferenceIdeal.Net.normOf (Cert.ReferenceIdeal.Net.srcOf (m ((c : Thread nD τ).loc main_arg1))) (Cert.ReferenceIdeal.Net.dstOf (m ((c : Thread nD τ).loc main_arg1)))) (Gcn.dense (n := 100000) (Cert.ReferenceIdeal.Net.layer (m ((c : Thread nD τ).loc main_arg1)) (Cert.ReferenceIdeal.Net.layer (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)))) := by
  refine (Glue.agg3 (W6 m ρ c)).trans ?_
  rw [at6_v3, at6_v7, at6_v27, at6_v58]
theorem at7_v72 : W7 m ρ c (Proc.devRef .tc main_v72) = (Cert.ReferenceIdeal.Net.rowOf (m ((c : Thread nD τ).loc main_arg7))) := by
  refine (Glue.row3 (W6 m ρ c)).trans ?_
  rw [at6_arg7]
  unfold Cert.ReferenceIdeal.Net.rowOf
  exact Cert.Lib.Rows.castRow_eq_dimRow _ _ _

/-! ## After the fourth kernel: the three layers -/

/-- The result buffer at the last boundary holds the three layers applied to the argument arrays. -/
theorem at8_v73 : W8 m ρ c (Proc.devRef .tc main_v73)
    = Cert.ReferenceIdeal.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((ActRegion.final (V7 m ρ) c).trans ?_)
  show Gcn.biasAct (F := Ideal) (n := 100000) (W7 m ρ c (Proc.devRef .tc main_v71)) (W7 m ρ c (Proc.devRef .tc main_v72)) = _
  rw [at7_v71, at7_v72]
  rfl

end Cert.KernelIdeal.Chain

end
-- ==== Proof.RefTerm.lean ====
/-
  The reference's result term is its three layers.

  The reference's run states its result as ONE composed term of the argument arrays, every shared value written
  out at each of its uses: the graph's endpoints and edge weights once per layer, a layer's biased sum three times
  in its rectifier. Folding the repeats back into the named functions — endpoints, weights, aggregation, product,
  bias-and-rectifier, layer — is unfolding of definitions and nothing else: no operation is read.
-/
import proofs.«174133_j19997367730748_1_alg».proof.Proof.RefRun
import proofs.«174133_j19997367730748_1_alg».proof.Proof.RefNet

noncomputable section

namespace Cert.ReferenceIdeal.Term

open Cert.ReferenceIdeal Cert.ReferenceIdeal.Gen Idealize.ShloMosaic Idealize.ShloMosaic.TcCoe Idealize.SL.Sem

variable {F : FTy → Type} [FloatOps F]

set_option maxRecDepth 8192 in
set_option maxHeartbeats 40000000 in
/-- The run's composed term is the network as the reference spells it, of the argument arrays. -/
theorem res_eq (m : (ℓ : Loc nD τ sig) → Buf (Elt F) ℓ) (c : Dev nD) :
    ValueP.res_main_v93 m c
      = Net.refNet (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold ValueP.res_main_v93
  rfl

end Cert.ReferenceIdeal.Term

end
-- ==== Proof.lean ====
/-
  The kernel and its reference are the same three-layer graph convolution.

  Both programs prepare the graph from the edge list by the same host operations and then apply three layers, each
  a product with a 64 × 64 weight matrix, an aggregation over the graph, a bias and a leaky rectifier. The
  reference does all of it on the host. The kernel's program does the aggregations on the host, by the same
  operations, and the dense work in four kernels over blocks of ten thousand rows: the first product alone; bias
  and rectifier fused with the next product, twice; the last bias and rectifier alone.

  At the exact values nothing separates the two. A kernel's product into a zero accumulator and the host's
  `dot_general` are the same sum over the 64 contracted positions (the operands' rounding to a shorter format
  is the identity); a bias reshaped to a row and a bias broadcast to a row are the same row; the rectifier is
  the same comparison and the same slope literal; a block of rows of a row-wise stage is the stage of the block
  of rows, and the ten blocks tile the array. The aggregation is applied by both programs to equal arrays and is
  never opened. No law of arithmetic beyond these identifications is used, so the finiteness of the inputs is
  never called on.

  The three frames: the two kernel programs' are the generated frame certificates; the reference's is its run
  with the result dropped. The idealization rewrote nothing, so there is nothing to preserve. For the value, the
  kernel program's run is read at its last boundary (Segments, Chain) and the reference's at its composed term
  (RefRun, RefTerm, RefNet); both are `Net.net` of the argument arrays.
-/
import proofs.«174133_j19997367730748_1_alg».proof.Defs
import proofs.«174133_j19997367730748_1_alg».proof.Proof.Gen.Kernel
import proofs.«174133_j19997367730748_1_alg».proof.Proof.Gen.Kernel.Skeleton
import proofs.«174133_j19997367730748_1_alg».proof.Proof.Gen.Kernel.Launch
import proofs.«174133_j19997367730748_1_alg».proof.Proof.Gen.Kernel.Points
import proofs.«174133_j19997367730748_1_alg».proof.Proof.Gen.Kernel.Frame
import proofs.«174133_j19997367730748_1_alg».proof.Proof.Gen.KernelIdeal
import proofs.«174133_j19997367730748_1_alg».proof.Proof.Gen.KernelIdeal.Skeleton
import proofs.«174133_j19997367730748_1_alg».proof.Proof.Gen.KernelIdeal.Launch
import proofs.«174133_j19997367730748_1_alg».proof.Proof.Gen.KernelIdeal.Points
import proofs.«174133_j19997367730748_1_alg».proof.Proof.Gen.KernelIdeal.Frame
import proofs.«174133_j19997367730748_1_alg».proof.Proof.Gen.ReferenceIdeal
import proofs.«174133_j19997367730748_1_alg».proof.Proof.Gen.Pre_finite_inputs
import proofs.«174133_j19997367730748_1_alg».proof.Proof.Segments
import proofs.«174133_j19997367730748_1_alg».proof.Proof.Chain
import proofs.«174133_j19997367730748_1_alg».proof.Proof.RefRun
import proofs.«174133_j19997367730748_1_alg».proof.Proof.RefTerm
import proofs.«174133_j19997367730748_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the three layers applied to the argument arrays: the kernel program's by
    the chain through its eight boundaries, the reference's by unfolding its composed term; the memories agree on
    the arguments. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ Cert.KernelIdeal.Segments.result_mem).trans (Cert.KernelIdeal.Chain.at8_v73 m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c)⟩)
      (Cert.KernelIdeal.Segments.run_boundary m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Term.res_eq, Cert.ReferenceIdeal.Net.refNet_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
